-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128 .f32) (main_arg17 : FVec F S128x2 .f32) (main_arg18 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg17
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S128x128 .f32) (main_arg16 : FVec F S128 .f32) (main_arg17 : FVec F S128x2 .f32) (main_arg18 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x2 .f32) (main_arg18 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x2 .f32) (main_arg18 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x2 .f32) (main_arg18 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S2000x128 : Shape := ⟨2, ![2000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 109
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S800000, .i1⟩
  | .hbm, ⟨24, _⟩ => ⟨S800000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S800000, .i1⟩
  | .hbm, ⟨47, _⟩ => ⟨S800000, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S800000, .i1⟩
  | .hbm, ⟨70, _⟩ => ⟨S800000, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x1, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S64x128, .f32⟩
  | .hbm, ⟨94, _⟩ => ⟨S50000x1, .i32⟩
  | .hbm, ⟨95, _⟩ => ⟨S64x128, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S64, .f32⟩
  | .hbm, ⟨100, _⟩ => ⟨S50000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x128, .f32⟩
  | .hbm, ⟨107, _⟩ => ⟨S64x128, .f32⟩
  | .hbm, ⟨108, _⟩ => ⟨S64x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S64x128, .f32⟩
  | .local _ .vmem, ⟨25, _⟩ => ⟨S128x128, .f32⟩
  | .local _ .vmem, ⟨26, _⟩ => ⟨S128, .f32⟩
  | .local _ .vmem, ⟨27, _⟩ => ⟨S128x2, .f32⟩
  | .local _ .vmem, ⟨28, _⟩ => ⟨S2, .f32⟩
  | .local _ .vmem, ⟨29, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_2 : Ref sig .tc := ⟨.hbm, 48, rfl⟩
abbrev main_v25 : Ref sig .tc := ⟨.hbm, 49, rfl⟩
abbrev main_v26 : Ref sig .tc := ⟨.hbm, 50, rfl⟩
abbrev main_c_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_6 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x2.size a ≤ S64x2.size a
  hwx3_5 : ∀ i : grid3.Coords, EltTy.bits .f32 = 32 ∨ (Rect.block (s := S64x2) S64x2.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S64x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x2, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S800000, .i1⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x1, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S800000, .i1⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S800000, .i1⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x1, .f32⟩
  | 107 => ⟨S800000x128, .f32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S64x128, .f32⟩
  | 5 => ⟨S50000x1, .i32⟩
  | 6 => ⟨S64x128, .f32⟩
  | 7 => ⟨S_, .f32⟩
  | 8 => ⟨S50000, .f32⟩
  | 9 => ⟨S_, .f32⟩
  | 10 => ⟨S64, .f32⟩
  | 11 => ⟨S50000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S64x128, .f32⟩
  | 20 => ⟨S1x128, .f32⟩
  | 21 => ⟨S64x128, .f32⟩
  | 22 => ⟨S64x128, .f32⟩
  | 23 => ⟨S_, .f32⟩
  | 24 => ⟨S64x128, .f32⟩
  | 25 => ⟨S64x128, .f32⟩
  | 26 => ⟨S64x2, .f32⟩
  | 27 => ⟨S1x2, .f32⟩
  | 28 => ⟨S64x2, .f32⟩
  | 29 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call0_cst : Ref sig .tc := ⟨.hbm, 49, rfl⟩
abbrev main_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_cst : Ref sig .tc := ⟨.hbm, 56, rfl⟩
abbrev main_call1_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_2 : Ref sig .tc := ⟨.hbm, 61, rfl⟩
abbrev main_v34 : Ref sig .tc := ⟨.hbm, 62, rfl⟩
abbrev main_v35 : Ref sig .tc := ⟨.hbm, 63, rfl⟩
abbrev main_c_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_4 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call2_cst : Ref sig .tc := ⟨.hbm, 85, rfl⟩
abbrev main_call2_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_cst : Ref sig .tc := ⟨.hbm, 92, rfl⟩
abbrev main_call3_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_6 : Ref sig .tc := ⟨.hbm, 97, rfl⟩
abbrev main_v62 : Ref sig .tc := ⟨.hbm, 98, rfl⟩
abbrev main_v63 : Ref sig .tc := ⟨.hbm, 99, rfl⟩
abbrev main_c_7 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_8 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_9 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call4_cst : Ref sig .tc := ⟨.hbm, 121, rfl⟩
abbrev main_call4_v0 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call5_cst : Ref sig .tc := ⟨.hbm, 128, rfl⟩
abbrev main_call5_v0 : Ref sig .tc := ⟨.hbm, 129, rfl⟩
abbrev main_v87 : Ref sig .tc := ⟨.hbm, 130, rfl⟩
abbrev main_cst_10 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_11 : Ref sig .tc := ⟨.hbm, 135, rfl⟩
abbrev main_v91 : Ref sig .tc := ⟨.hbm, 136, rfl⟩
abbrev main_cst_12 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_13 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call6_cst : Ref sig .tc := ⟨.hbm, 151, rfl⟩
abbrev main_call6_v0 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Glue.lean ====
/-
  The host-side steps both programs share, each wrapped once as a function of the arrays it reads.

  `aggregate h s d` is one neighbourhood sum: every edge `(s e, d e)` that is not a self loop sends row `s e` of `h`
  (a negative source index wrapped by the node count) to be added into row `d e` of a zero array, and `h` itself is
  added on top with weight one. `pool h b` is the per-graph mean: rows of `h` summed into the graph `b` names,
  divided by the number of nodes of that graph, at least one. Neither is ever opened: the two programs apply the
  same operations to the same operands, so it is enough that both sides are these functions.
-/
import proofs.«117396_j5025111736763_1_alg».proof.KernelIdeal
import proofs.«117396_j5025111736763_1_alg».proof.Proof.Gen.KernelIdeal
import Idealize.ShloMosaic.PureOps.Ideal

noncomputable section

namespace Cert.Gin

open Idealize.ShloMosaic Idealize.ShloMosaic.TcCoe Cert.KernelIdeal
open Cert.KernelIdeal.Facts₀

variable {F : FTy → Type} [FloatOps F]

/-- The contents of a buffer of shape `S` and element type `e` (the functions below are written at any instance, as the
    programs are, and used at the exact one). -/
local notation "𝔹[" S ", " e "]" => BufTy.Contents (Elt F) (BufTy.mk S e)

/-- The source row of the edge list, as a vector of node indices. -/
def sources (e : 𝔹[S2x800000, .i32]) : 𝔹[S800000, .i32] :=
  shapeCast S800000 ((extractStridedSlice S1x800000 ![0, 0] · slices_S2x800000_S1x800000_0_0 : 𝔹[S2x800000, .i32] → 𝔹[S1x800000, .i32]) e) shapeCasts_S1x800000_S800000

/-- The destination row of the edge list. -/
def targets (e : 𝔹[S2x800000, .i32]) : 𝔹[S800000, .i32] :=
  shapeCast S800000 ((extractStridedSlice S1x800000 ![1, 0] · slices_S2x800000_S1x800000_1_0 : 𝔹[S2x800000, .i32] → 𝔹[S1x800000, .i32]) e) shapeCasts_S1x800000_S800000

/-- One neighbourhood sum with the node's own row added back. -/
def aggregate (h : 𝔹[S50000x128, .f32]) (s d : 𝔹[S800000, .i32]) : 𝔹[S50000x128, .f32] :=
  let keep : 𝔹[S800000, .f32] := (uitofp .f32 : 𝔹[S800000, .i1] → 𝔹[S800000, .f32]) ((cmpi .ne : 𝔹[S800000, .i32] → 𝔹[S800000, .i32] → 𝔹[S800000, .i1]) s d)
  let zeros : 𝔹[S800000, .i32] := (broadcastInDim S800000 ![] bcast_S_S800000 : 𝔹[S_, .i32] → 𝔹[S800000, .i32]) (constantI S_ 32 0#32)
  let counts : 𝔹[S800000, .i32] := (broadcastInDim S800000 ![] bcast_S_S800000 : 𝔹[S_, .i32] → 𝔹[S800000, .i32]) (constantI S_ 32 50000#32)
  let wrapped : 𝔹[S800000, .i32] :=
    (select : 𝔹[S800000, .i1] → 𝔹[S800000, .i32] → 𝔹[S800000, .i32] → 𝔹[S800000, .i32])
      ((cmpi .slt : 𝔹[S800000, .i32] → 𝔹[S800000, .i32] → 𝔹[S800000, .i1]) s zeros)
      ((addi : 𝔹[S800000, .i32] → 𝔹[S800000, .i32] → 𝔹[S800000, .i32]) s counts) s
  let gathered : 𝔹[S800000x128, .f32] :=
    ((fun x i => Host.gather gather_S50000x128_S800000x1_S800000x128_1_0_n_n_0_1_1128 x i) : 𝔹[S50000x128, .f32] → 𝔹[S800000x1, .i32] → 𝔹[S800000x128, .f32])
      h ((broadcastInDim S800000x1 ![0] bcast_S800000_S800000x1_0 : 𝔹[S800000, .i32] → 𝔹[S800000x1, .i32]) wrapped)
  let weights : 𝔹[S800000x128, .f32] :=
    (broadcastInDim S800000x128 ![0, 1] bcast_S800000x1_S800000x128_0_1 : 𝔹[S800000x1, .f32] → 𝔹[S800000x128, .f32])
      ((broadcastInDim S800000x1 ![0] bcast_S800000_S800000x1_0 : 𝔹[S800000, .f32] → 𝔹[S800000x1, .f32]) keep)
  let messages : 𝔹[S800000x128, .f32] := (mulf : 𝔹[S800000x128, .f32] → 𝔹[S800000x128, .f32] → 𝔹[S800000x128, .f32]) gathered weights
  let summed : 𝔹[S50000x128, .f32] :=
    ((fun x i u => Host.scatterAdd scatter_S50000x128_S800000x1_S800000x128_1_0_0_1 x i u) : 𝔹[S50000x128, .f32] → 𝔹[S800000x1, .i32] → 𝔹[S800000x128, .f32] → 𝔹[S50000x128, .f32])
      ((broadcastInDim S50000x128 ![] bcast_S_S50000x128 : 𝔹[S_, .f32] → 𝔹[S50000x128, .f32]) (constant S_ .f32 0x00000000#32))
      ((broadcastInDim S800000x1 ![0] bcast_S800000_S800000x1_0 : 𝔹[S800000, .i32] → 𝔹[S800000x1, .i32]) d) messages
  let own : 𝔹[S50000x128, .f32] :=
    (mulf : 𝔹[S50000x128, .f32] → 𝔹[S50000x128, .f32] → 𝔹[S50000x128, .f32])
      ((broadcastInDim S50000x128 ![] bcast_S_S50000x128 : 𝔹[S_, .f32] → 𝔹[S50000x128, .f32]) (constant S_ .f32 0x3F800000#32)) h
  (addf : 𝔹[S50000x128, .f32] → 𝔹[S50000x128, .f32] → 𝔹[S50000x128, .f32]) summed own

/-- The per-graph mean of the node rows. -/
def pool (h : 𝔹[S50000x128, .f32]) (b : 𝔹[S50000, .i32]) : 𝔹[S64x128, .f32] :=
  let sums : 𝔹[S64x128, .f32] :=
    ((fun x i u => Host.scatterAdd scatter_S64x128_S50000x1_S50000x128_1_0_0_1 x i u) : 𝔹[S64x128, .f32] → 𝔹[S50000x1, .i32] → 𝔹[S50000x128, .f32] → 𝔹[S64x128, .f32])
      ((broadcastInDim S64x128 ![] bcast_S_S64x128 : 𝔹[S_, .f32] → 𝔹[S64x128, .f32]) (constant S_ .f32 0x00000000#32))
      ((broadcastInDim S50000x1 ![0] bcast_S50000_S50000x1_0 : 𝔹[S50000, .i32] → 𝔹[S50000x1, .i32]) b) h
  let counts : 𝔹[S64, .f32] :=
    ((fun x i u => Host.scatterAdd scatter_S64_S50000x1_S50000_n_0_0_1 x i u) : 𝔹[S64, .f32] → 𝔹[S50000x1, .i32] → 𝔹[S50000, .f32] → 𝔹[S64, .f32])
      ((broadcastInDim S64 ![] bcast_S_S64 : 𝔹[S_, .f32] → 𝔹[S64, .f32]) (constant S_ .f32 0x00000000#32))
      ((broadcastInDim S50000x1 ![0] bcast_S50000_S50000x1_0 : 𝔹[S50000, .i32] → 𝔹[S50000x1, .i32]) b)
      ((broadcastInDim S50000 ![] bcast_S_S50000 : 𝔹[S_, .f32] → 𝔹[S50000, .f32]) (constant S_ .f32 0x3F800000#32))
  let atLeastOne : 𝔹[S64, .f32] :=
    (maximumf : 𝔹[S64, .f32] → 𝔹[S64, .f32] → 𝔹[S64, .f32]) counts
      ((broadcastInDim S64 ![] bcast_S_S64 : 𝔹[S_, .f32] → 𝔹[S64, .f32]) (constant S_ .f32 0x3F800000#32))
  (Host.divf : 𝔹[S64x128, .f32] → 𝔹[S64x128, .f32] → 𝔹[S64x128, .f32]) sums
    ((broadcastInDim S64x128 ![0, 1] bcast_S64x1_S64x128_0_1 : 𝔹[S64x1, .f32] → 𝔹[S64x128, .f32])
      ((broadcastInDim S64x1 ![0] bcast_S64_S64x1_0 : 𝔹[S64, .f32] → 𝔹[S64x1, .f32]) atLeastOne))

end Cert.Gin

end
-- ==== Proof.Spec.lean ====
/-
  The graph network both programs compute, written once over the extended reals.

  A dense layer sends a row `x` (one node's features) to `x · W + b`, column by column: the sum over the
  contracted axis of `x j * W (j, c)`, plus `b c`. A layer followed by the positive part is `max (x · W + b) 0`.
  The node update of one message-passing round is two such layers applied to a row; the read-out is one
  such layer followed by a plain dense layer, applied to a pooled row. Every float literal stays the word the
  programs spell (the zero word here), so neither side ever evaluates it.

  The one fact about matrix products used later is also here: a product into a zero accumulator, read at
  `(p, q)`, is the plain sum over the contracted axis of `a (p, j) * w (j, q)` — for any contraction record whose
  operand indices are the textbook ones, which each program's own records are.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Gin

open Idealize.ShloMosaic Idealize.ShloMosaic.ValueIdx
open scoped BigOperators

/-- The zero both programs take the positive part against: the f32 zero word, kept as a word. -/
abbrev zero32 : EReal := Ideal.ofBits .f32 0x00000000#32

/-- Row `r` of a matrix, as a function of the column. -/
def row {n k : Nat} (h : (⟨2, ![n, k]⟩ : Shape).Idx → EReal) (r : Fin n) : Fin k → EReal := fun j => h (ix2 r j)

/-- A dense layer on one row: `(x · W + b) c = Σ_j x j * W (j, c) + b c`. -/
def dense {k o : Nat} (x : Fin k → EReal) (W : (⟨2, ![k, o]⟩ : Shape).Idx → EReal) (b : (⟨1, ![o]⟩ : Shape).Idx → EReal)
    (c : Fin o) : EReal :=
  (∑ j : Fin k, x j * W (ix2 j c)) + b (ix1 c)

/-- A dense layer followed by the positive part. -/
def denseRelu {k o : Nat} (x : Fin k → EReal) (W : (⟨2, ![k, o]⟩ : Shape).Idx → EReal) (b : (⟨1, ![o]⟩ : Shape).Idx → EReal)
    (c : Fin o) : EReal :=
  max (dense x W b c) zero32

/-- The node update on one row: two dense layers, each followed by the positive part. -/
def mlpRow (x : Fin 128 → EReal) (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal) (c : Fin 128) : EReal :=
  denseRelu (denseRelu x Wa ba) Wb bb c

/-- The read-out on one pooled row: a dense layer with the positive part, then a plain dense layer onto the classes. -/
def ffnRow (x : Fin 128 → EReal) (Wa : (⟨2, ![128, 128]⟩ : Shape).Idx → EReal) (ba : (⟨1, ![128]⟩ : Shape).Idx → EReal)
    (Wb : (⟨2, ![128, 2]⟩ : Shape).Idx → EReal) (bb : (⟨1, ![2]⟩ : Shape).Idx → EReal) (c : Fin 2) : EReal :=
  dense (denseRelu x Wa ba) Wb bb c

/-- The node update of every node: row `r` of the result is `mlpRow` of row `r` of the input. -/
def mlp {n : Nat} (h : (⟨2, ![n, 128]⟩ : Shape).Idx → EReal) (Wa : (⟨2, ![128, 128]⟩ : Shape).Idx → EReal)
    (ba : (⟨1, ![128]⟩ : Shape).Idx → EReal) (Wb : (⟨2, ![128, 128]⟩ : Shape).Idx → EReal) (bb : (⟨1, ![128]⟩ : Shape).Idx → EReal) :
    (⟨2, ![n, 128]⟩ : Shape).Idx → EReal :=
  fun i => mlpRow (row h (i 0)) Wa ba Wb bb (i 1)

/-- The read-out of every graph: row `g` of the result is `ffnRow` of pooled row `g`. -/
def ffn {n : Nat} (p : (⟨2, ![n, 128]⟩ : Shape).Idx → EReal) (Wa : (⟨2, ![128, 128]⟩ : Shape).Idx → EReal)
    (ba : (⟨1, ![128]⟩ : Shape).Idx → EReal) (Wb : (⟨2, ![128, 2]⟩ : Shape).Idx → EReal) (bb : (⟨1, ![2]⟩ : Shape).Idx → EReal) :
    (⟨2, ![n, 2]⟩ : Shape).Idx → EReal :=
  fun i => ffnRow (row p (i 0)) Wa ba Wb bb (i 1)

theorem mlp_apply {n : Nat} (h : (⟨2, ![n, 128]⟩ : Shape).Idx → EReal) (Wa : (⟨2, ![128, 128]⟩ : Shape).Idx → EReal)
    (ba : (⟨1, ![128]⟩ : Shape).Idx → EReal) (Wb : (⟨2, ![128, 128]⟩ : Shape).Idx → EReal) (bb : (⟨1, ![128]⟩ : Shape).Idx → EReal)
    (r : Fin n) (c : Fin 128) : mlp h Wa ba Wb bb (ix2 r c) = mlpRow (row h r) Wa ba Wb bb c := rfl

theorem ffn_apply {n : Nat} (p : (⟨2, ![n, 128]⟩ : Shape).Idx → EReal) (Wa : (⟨2, ![128, 128]⟩ : Shape).Idx → EReal)
    (ba : (⟨1, ![128]⟩ : Shape).Idx → EReal) (Wb : (⟨2, ![128, 2]⟩ : Shape).Idx → EReal) (bb : (⟨1, ![2]⟩ : Shape).Idx → EReal)
    (r : Fin n) (c : Fin 2) : ffn p Wa ba Wb bb (ix2 r c) = ffnRow (row p r) Wa ba Wb bb c := rfl

/-- A matrix product into the zero accumulator, read at `(p, q)`: the sum over the contracted axis of
    `a (p, j) * w (j, q)`, for a contraction record with one contracted axis of extent `k` whose operand indices at
    output `i` and contraction index `t` are `(i 0, t)` on the left and `(t, i 1)` on the right. -/
theorem matmul_zero_ix2 {n k o : Nat} {φ₁ φ₂ : FTy}
    (D : DotDims (⟨2, ![n, k]⟩ : Shape) (⟨2, ![k, o]⟩ : Shape) (⟨2, ![n, o]⟩ : Shape)) (prec : Option ContractPrecision)
    (hr : D.contr.rank = 1) (hs : D.contr.size ⟨0, by omega⟩ = k)
    (hl0 : ∀ i t, (D.lhsIdx i t 0).val = (i 0).val) (hl1 : ∀ i t, (D.lhsIdx i t 1).val = (t ⟨0, by omega⟩).val)
    (hr0 : ∀ i t, (D.rhsIdx i t 0).val = (t ⟨0, by omega⟩).val) (hr1 : ∀ i t, (D.rhsIdx i t 1).val = (i 1).val)
    (a : FVec Ideal (⟨2, ![n, k]⟩ : Shape) φ₁) (w : FVec Ideal (⟨2, ![k, o]⟩ : Shape) φ₂) (p : Fin n) (q : Fin o) :
    FloatOps.matmul D prec a w (constant (⟨2, ![n, o]⟩ : Shape) .f32 0x00000000#32) (ix2 p q)
      = ∑ j : Fin k, a (ix2 p j) * w (ix2 j q) := by
  rw [Ideal.matmul_constant_zero_apply, ← Equiv.sum_comp (contrEquiv1 D k hr hs).symm]
  refine Finset.sum_congr rfl fun j _ => ?_
  have hj := contrEquiv1_symm_val D k hr hs j
  have el : D.lhsIdx (ix2 p q) ((contrEquiv1 D k hr hs).symm j) = ix2 p j := funext fun ax => Fin.ext (by
    match ax with
    | ⟨0, _⟩ => exact hl0 _ _
    | ⟨1, _⟩ => exact (hl1 _ _).trans hj)
  have er : D.rhsIdx (ix2 p q) ((contrEquiv1 D k hr hs).symm j) = ix2 j q := funext fun ax => Fin.ext (by
    match ax with
    | ⟨0, _⟩ => exact (hr0 _ _).trans hj
    | ⟨1, _⟩ => exact hr1 _ _)
  rw [el, er]

/-- The host's matrix product read at `(p, q)`: the same sum. -/
theorem dotGeneral_ix2 {n k o : Nat} {φ₁ φ₂ : FTy}
    (D : DotDims (⟨2, ![n, k]⟩ : Shape) (⟨2, ![k, o]⟩ : Shape) (⟨2, ![n, o]⟩ : Shape)) (prec : Option ContractPrecision) (sched : HostSchedule)
    (hr : D.contr.rank = 1) (hs : D.contr.size ⟨0, by omega⟩ = k)
    (hl0 : ∀ i t, (D.lhsIdx i t 0).val = (i 0).val) (hl1 : ∀ i t, (D.lhsIdx i t 1).val = (t ⟨0, by omega⟩).val)
    (hr0 : ∀ i t, (D.rhsIdx i t 0).val = (t ⟨0, by omega⟩).val) (hr1 : ∀ i t, (D.rhsIdx i t 1).val = (i 1).val)
    (a : FVec Ideal (⟨2, ![n, k]⟩ : Shape) φ₁) (w : FVec Ideal (⟨2, ![k, o]⟩ : Shape) φ₂) (p : Fin n) (q : Fin o) :
    FloatOps.dotGeneral D prec sched a w (ix2 p q) = ∑ j : Fin k, a (ix2 p j) * w (ix2 j q) := by
  rw [Ideal.dotGeneral_apply, ← Equiv.sum_comp (contrEquiv1 D k hr hs).symm]
  refine Finset.sum_congr rfl fun j _ => ?_
  have hj := contrEquiv1_symm_val D k hr hs j
  have el : D.lhsIdx (ix2 p q) ((contrEquiv1 D k hr hs).symm j) = ix2 p j := funext fun ax => Fin.ext (by
    match ax with
    | ⟨0, _⟩ => exact hl0 _ _
    | ⟨1, _⟩ => exact (hl1 _ _).trans hj)
  have er : D.rhsIdx (ix2 p q) ((contrEquiv1 D k hr hs).symm j) = ix2 j q := funext fun ax => Fin.ext (by
    match ax with
    | ⟨0, _⟩ => exact (hr0 _ _).trans hj
    | ⟨1, _⟩ => exact hr1 _ _)
  rw [el, er]

end Cert.Gin

end
-- ==== Proof.Network.lean ====
/-
  The whole computation as one function of the argument arrays: three rounds of neighbourhood sum and node update
  over the same edge list, then the per-graph mean, then the read-out. Both programs are shown to end at this value.
-/
import proofs.«117396_j5025111736763_1_alg».proof.Proof.Glue
import proofs.«117396_j5025111736763_1_alg».proof.Proof.Spec

noncomputable section

namespace Cert.Gin

open Idealize.ShloMosaic Idealize.ShloMosaic.TcCoe Cert.KernelIdeal

/-- The whole network as one function of the argument arrays: three rounds of neighbourhood sum and node update
    over the same edge list, the per-graph mean, the read-out. -/
def network (x : (⟨S50000x128, .f32⟩ : BufTy).Contents (Elt Ideal)) (e : (⟨S2x800000, .i32⟩ : BufTy).Contents (Elt Ideal))
    (b : (⟨S50000, .i32⟩ : BufTy).Contents (Elt Ideal))
    (W0 : (⟨S128x128, .f32⟩ : BufTy).Contents (Elt Ideal)) (b0 : (⟨S128, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal))
    (W4 : (⟨S128x128, .f32⟩ : BufTy).Contents (Elt Ideal)) (b4 : (⟨S128, .f32⟩ : BufTy).Contents (Elt Ideal))
    (W5 : (⟨S128x128, .f32⟩ : BufTy).Contents (Elt Ideal)) (b5 : (⟨S128, .f32⟩ : BufTy).Contents (Elt Ideal))
    (Wf1 : (⟨S128x128, .f32⟩ : BufTy).Contents (Elt Ideal)) (bf1 : (⟨S128, .f32⟩ : BufTy).Contents (Elt Ideal))
    (Wf2 : (⟨S128x2, .f32⟩ : BufTy).Contents (Elt Ideal)) (bf2 : (⟨S2, .f32⟩ : BufTy).Contents (Elt Ideal)) :
    (⟨S64x2, .f32⟩ : BufTy).Contents (Elt Ideal) :=
  ffn (pool (F := Ideal) (mlp (aggregate (F := Ideal) (mlp (aggregate (F := Ideal) (mlp (aggregate (F := Ideal) x (sources (F := Ideal) e) (targets (F := Ideal) e)) W0 b0 W1 b1) (sources (F := Ideal) e) (targets (F := Ideal) e)) W2 b2 W3 b3)
    (sources (F := Ideal) e) (targets (F := Ideal) e)) W4 b4 W5 b5) b) Wf1 bf1 Wf2 bf2

end Cert.Gin

end
-- ==== Proof.Payload.lean ====
/-
  What one grid point's body computes, read at an index.

  The node-update body loads a block of 2000 rows and the two weight matrices and bias rows, and stores
  `max (max (x · Wa + ba) 0 · Wb + bb) 0`; the changes of float format on the way into each product are the
  identity on extended reals, each product goes into a zero accumulator, and each bias row is broadcast down the
  rows. So entry `(p, q)` of the stored block is the node update (`Cert.Gin.mlpRow`) of row `p` of the loaded
  block, at column `q`. The read-out body is the same with 64 rows and a last layer without the positive part.
-/
import proofs.«117396_j5025111736763_1_alg».proof.Proof.Gen.KernelIdeal.Skeleton
import proofs.«117396_j5025111736763_1_alg».proof.Proof.Spec

noncomputable section

namespace Cert.Gin.Body

open Idealize.ShloMosaic Idealize.ShloMosaic.ValueIdx Cert.KernelIdeal Cert.KernelIdeal.Gen Cert.Gin
open scoped BigOperators

/-- The body's product through `dot_S2000x128_S128x128_S2000x128_1_0_0_1_n_n`, into the zero accumulator, read at `(p, q)`. -/
theorem mm_block {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q)
      = ∑ j : Fin 128, a (ix2 p j) * w (ix2 j q) :=
  matmul_zero_ix2 dot_S2000x128_S128x128_S2000x128_1_0_0_1_n_n none rfl rfl
    (fun i t => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun i t => dot_S2000x128_S128x128_S2000x128_1_0_0_1_n_n.lhsIdx_val_of_single rfl i t)
    (fun i t => dot_S2000x128_S128x128_S2000x128_1_0_0_1_n_n.rhsIdx_val_of_single rfl i t)
    (fun i t => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    a w p q

/-- The body's product through `dot_S64x128_S128x128_S64x128_1_0_0_1_n_n`, into the zero accumulator, read at `(p, q)`. -/
theorem mm_pool {φ₁ φ₂ : FTy} (a : FVec Ideal S64x128 φ₁) (w : FVec Ideal S128x128 φ₂) (p : Fin 64) (q : Fin 128) :
    matmul dot_S64x128_S128x128_S64x128_1_0_0_1_n_n none a w (constant S64x128 .f32 0x00000000#32) (ix2 p q)
      = ∑ j : Fin 128, a (ix2 p j) * w (ix2 j q) :=
  matmul_zero_ix2 dot_S64x128_S128x128_S64x128_1_0_0_1_n_n none rfl rfl
    (fun i t => by
      unfold DotDims.lhsIdx
      rw [dif_neg (show ¬(0 : Fin S64x128.rank) ∈ dot_S64x128_S128x128_S64x128_1_0_0_1_n_n.lhsBatch by decide),
        dif_pos (show (0 : Fin S64x128.rank) ∈ dot_S64x128_S128x128_S64x128_1_0_0_1_n_n.lhsNonContracting by decide)]
      rfl)
    (fun i t => dot_S64x128_S128x128_S64x128_1_0_0_1_n_n.lhsIdx_val_of_single rfl i t)
    (fun i t => dot_S64x128_S128x128_S64x128_1_0_0_1_n_n.rhsIdx_val_of_single rfl i t)
    (fun i t => by
      unfold DotDims.rhsIdx
      rw [dif_neg (show ¬(1 : Fin S128x128.rank) ∈ dot_S64x128_S128x128_S64x128_1_0_0_1_n_n.rhsBatch by decide),
        dif_pos (show (1 : Fin S128x128.rank) ∈ dot_S64x128_S128x128_S64x128_1_0_0_1_n_n.rhsNonContracting by decide)]
      rfl)
    a w p q

/-- The body's product through `dot_S64x128_S128x2_S64x2_1_0_0_1_n_n`, into the zero accumulator, read at `(p, q)`. -/
theorem mm_class {φ₁ φ₂ : FTy} (a : FVec Ideal S64x128 φ₁) (w : FVec Ideal S128x2 φ₂) (p : Fin 64) (q : Fin 2) :
    matmul dot_S64x128_S128x2_S64x2_1_0_0_1_n_n none a w (constant S64x2 .f32 0x00000000#32) (ix2 p q)
      = ∑ j : Fin 128, a (ix2 p j) * w (ix2 j q) :=
  matmul_zero_ix2 dot_S64x128_S128x2_S64x2_1_0_0_1_n_n none rfl rfl
    (fun i t => by
      unfold DotDims.lhsIdx
      rw [dif_neg (show ¬(0 : Fin S64x128.rank) ∈ dot_S64x128_S128x2_S64x2_1_0_0_1_n_n.lhsBatch by decide),
        dif_pos (show (0 : Fin S64x128.rank) ∈ dot_S64x128_S128x2_S64x2_1_0_0_1_n_n.lhsNonContracting by decide)]
      rfl)
    (fun i t => dot_S64x128_S128x2_S64x2_1_0_0_1_n_n.lhsIdx_val_of_single rfl i t)
    (fun i t => dot_S64x128_S128x2_S64x2_1_0_0_1_n_n.rhsIdx_val_of_single rfl i t)
    (fun i t => by
      unfold DotDims.rhsIdx
      rw [dif_neg (show ¬(1 : Fin S128x2.rank) ∈ dot_S64x128_S128x2_S64x2_1_0_0_1_n_n.rhsBatch by decide),
        dif_pos (show (1 : Fin S128x2.rank) ∈ dot_S64x128_S128x2_S64x2_1_0_0_1_n_n.rhsNonContracting by decide)]
      rfl)
    a w p q

/-- A bias row given a leading unit axis and broadcast down `n` rows reads, at `(p, q)`, the bias at `q`. -/
theorem bias_rows {n o : Nat} (b : (⟨1, ![o]⟩ : Shape).Idx → EReal) (h1 : (⟨1, ![o]⟩ : Shape).ShapeCasts ⟨2, ![1, o]⟩)
    (h2 : (⟨2, ![1, o]⟩ : Shape).Broadcasts ⟨2, ![n, o]⟩) (p : Fin n) (q : Fin o) :
    broadcastTo (⟨2, ![n, o]⟩ : Shape) (shapeCast (⟨2, ![1, o]⟩ : Shape) b h1) h2 (ix2 p q) = b (ix1 q) := by
  rw [broadcastTo_1b_ab_apply, shapeCast_a_1a_apply]

/-- Entry `(p, q)` of the node-update body's stored block is the node update of row `p` of the loaded block. -/
theorem pay_mlp (x0 : Vec Ideal S2000x128 .f32) (x1 : Vec Ideal S128x128 .f32) (x2 : Vec Ideal S128 .f32)
    (x3 : Vec Ideal S128x128 .f32) (x4 : Vec Ideal S128 .f32) (p : Fin 2000) (q : Fin 128) :
    k0_pay1 (F := Ideal) x0 x1 x2 x3 x4 (ix2 p q) = mlpRow (row x0 p) x1 x2 x3 x4 q := by
  unfold k0_pay1 mlpRow denseRelu dense row
  dsimp only
  simp only [maximumf_apply, addf_apply, mm_block, bias_rows, truncf_apply, shapeCast_self, broadcast_apply]
  rfl

/-- Entry `(p, q)` of the read-out body's stored block is the read-out of pooled row `p`. -/
theorem pay_ffn (x0 : Vec Ideal S64x128 .f32) (x1 : Vec Ideal S128x128 .f32) (x2 : Vec Ideal S128 .f32)
    (x3 : Vec Ideal S128x2 .f32) (x4 : Vec Ideal S2 .f32) (p : Fin 64) (q : Fin 2) :
    k3_pay1 (F := Ideal) x0 x1 x2 x3 x4 (ix2 p q) = ffnRow (row x0 p) x1 x2 x3 x4 q := by
  unfold k3_pay1 ffnRow denseRelu dense row
  dsimp only
  simp only [maximumf_apply, addf_apply, mm_pool, mm_class, bias_rows, truncf_apply, shapeCast_self, broadcast_apply]
  rfl

/-- The three node-update bodies are one function of their loaded blocks. -/
theorem pay1_eq : @k1_pay1 Ideal _ = @k0_pay1 Ideal _ := rfl
theorem pay2_eq : @k2_pay1 Ideal _ = @k0_pay1 Ideal _ := rfl

end Cert.Gin.Body

end
-- ==== Proof.Round0.lean ====
/-
  Round 1 of message passing: what the tiled node-update call leaves in its output array.

  The call walks 25 grid points; point `t` stages rows `2000 t … 2000 t + 1999` of the input, the whole of both
  weight matrices and bias rows, and writes back rows `2000 t … 2000 t + 1999` of the output. A row of the stored
  block is the node update of the same row of the loaded block (`Cert.Gin.Body.pay_mlp`), and that row of the loaded
  block is row `2000 t + p` of the input array; the 25 blocks tile the 50000 rows. So the output array ends as the
  node update (`Cert.Gin.mlp`) of the input array, whatever the arrays hold when the call is entered.
-/
import proofs.«117396_j5025111736763_1_alg».proof.Proof.Gen.KernelIdeal.Frame
import proofs.«117396_j5025111736763_1_alg».proof.Proof.Payload

set_option maxRecDepth 16384

noncomputable section

namespace Cert.Gin.Round0

open Idealize.ShloMosaic Idealize.ShloMosaic.TcCoe Idealize.ShloMosaic.ValueIdx Idealize.SL.Sem
open Cert.KernelIdeal Cert.KernelIdeal.Gen Cert.Gin
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row blocks of input and output move with the point, the weights and
    biases stay at block 0. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The staged block of a weight matrix is the whole matrix. -/
theorem wblock1 (c : Dev nD) (t : Fin cfg0.N) : iblk0 V c 1 t = V c main_arg3 := by
  obtain ⟨-, -, e0, e1, -⟩ := index_maps t
  funext y
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem wblock3 (c : Dev nD) (t : Fin cfg0.N) : iblk0 V c 3 t = V c main_arg5 := by
  obtain ⟨-, -, -, -, -, e0, e1, -⟩ := index_maps t
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The staged block of a bias row is the whole row. -/
theorem bblock2 (c : Dev nD) (t : Fin cfg0.N) : iblk0 V c 2 t = V c main_arg4 := by
  obtain ⟨-, -, -, -, e0, -⟩ := index_maps t
  funext y
  show V c main_arg4 (((cfg0.win 2).blk t).view.emb y) = V c main_arg4 y
  refine congrArg _ (funext fun a => Fin.ext ?_)
  match a with
  | ⟨0, _⟩ => show win0_2.index t (0 : Fin 1) * 128 + 1 * (y 0).val = (y 0).val; omega

theorem bblock4 (c : Dev nD) (t : Fin cfg0.N) : iblk0 V c 4 t = V c main_arg6 := by
  obtain ⟨-, -, -, -, -, -, -, e0, -⟩ := index_maps t
  funext y
  show V c main_arg6 (((cfg0.win 4).blk t).view.emb y) = V c main_arg6 y
  refine congrArg _ (funext fun a => Fin.ext ?_)
  match a with
  | ⟨0, _⟩ => show win0_4.index t (0 : Fin 1) * 128 + 1 * (y 0).val = (y 0).val; omega

/-- Row `p` of the staged input block at point `t` is row `2000 t + p` of the input array. -/
theorem xrow (c : Dev nD) (t : Fin cfg0.N) (p : Fin 2000) (r : Fin 50000) (hr : r.val = t.val * 2000 + p.val) :
    row (iblk0 V c 0 t) p = row (V c main_v21) r := by
  obtain ⟨e0, e1, -⟩ := index_maps t
  funext j
  show V c main_v21 (((cfg0.win 0).blk t).view.emb (ix2 p j)) = V c main_v21 (ix2 r j)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * j.val = j.val; omega

/-- What point `t` writes back is block `t` of the node update of the input array. -/
theorem flushed_eq (c : Dev nD) (t : Fin cfg0.N) :
    (dat0 V c).flushed 5 t = ((cfg0.win 5).blk t).view.read (Elt Ideal)
      (mlp (V c main_v21) (V c main_arg3) (V c main_arg4) (V c main_arg5) (V c main_arg6)) := by
  show (cfg0.win 5).cut (grid0.coords t) ((dat0 V c).after 5 t) = _
  rw [after0_5]
  unfold out0_5
  rw [View.canon_unit_zero zero2]
  simp only [View.ld_unit_zero (S := S2000x128) zero2, View.ld_unit_zero (S := S128x128) zero2, View.ld_unit_zero (S := S128) zero1]
  rw [wblock1, bblock2, wblock3, bblock4]
  obtain ⟨-, -, -, -, -, -, -, -, e0, e1⟩ := index_maps t
  funext j
  obtain ⟨p, q, rfl⟩ : ∃ (p : Fin 2000) (q : Fin 128), j = ix2 p q := ⟨j 0, j 1, eq_ix2 j⟩
  have ht : t.val < 25 := t.isLt
  let r : Fin 50000 := ⟨t.val * 2000 + p.val, by have := p.isLt; omega⟩
  have hemb : ((cfg0.win 5).blk t).view.emb (ix2 p q) = ix2 r q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (iblk0 V c 0 t) (V c main_arg3) (V c main_arg4) (V c main_arg5) (V c main_arg6) (ix2 p q)
    = mlp (V c main_v21) (V c main_arg3) (V c main_arg4) (V c main_arg5) (V c main_arg6) (((cfg0.win 5).blk t).view.emb (ix2 p q))
  rw [hemb, mlp_apply, ← xrow V c t p r rfl]
  exact Body.pay_mlp _ _ _ _ _ p q

/-- An index of the output array is in point `t`'s block iff each coordinate is in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- The 25 row blocks tile the output: row `i` lies in the block of point `i / 2000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, -, -, -, e0, e1⟩ := index_maps t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after the call: the node update of the input array as the call finds it. -/
theorem value (c : Dev nD) :
    (dat0 V c).arrAt 5 cfg0.N = mlp (V c main_v21) (V c main_arg3) (V c main_arg4) (V c main_arg5) (V c main_arg6) :=
  (dat0 V c).arrAt_eq_of_cover 5 _ (fun t _ => flushed_eq V c t) cover

end Cert.Gin.Round0

end
-- ==== Proof.Round1.lean ====
/-
  Round 2 of message passing: what the tiled node-update call leaves in its output array.

  The call walks 25 grid points; point `t` stages rows `2000 t … 2000 t + 1999` of the input, the whole of both
  weight matrices and bias rows, and writes back rows `2000 t … 2000 t + 1999` of the output. A row of the stored
  block is the node update of the same row of the loaded block (`Cert.Gin.Body.pay_mlp`), and that row of the loaded
  block is row `2000 t + p` of the input array; the 25 blocks tile the 50000 rows. So the output array ends as the
  node update (`Cert.Gin.mlp`) of the input array, whatever the arrays hold when the call is entered.
-/
import proofs.«117396_j5025111736763_1_alg».proof.Proof.Gen.KernelIdeal.Frame
import proofs.«117396_j5025111736763_1_alg».proof.Proof.Payload

set_option maxRecDepth 16384

noncomputable section

namespace Cert.Gin.Round1

open Idealize.ShloMosaic Idealize.ShloMosaic.TcCoe Idealize.ShloMosaic.ValueIdx Idealize.SL.Sem
open Cert.KernelIdeal Cert.KernelIdeal.Gen Cert.Gin
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row blocks of input and output move with the point, the weights and
    biases stay at block 0. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The staged block of a weight matrix is the whole matrix. -/
theorem wblock1 (c : Dev nD) (t : Fin cfg1.N) : iblk1 V c 1 t = V c main_arg7 := by
  obtain ⟨-, -, e0, e1, -⟩ := index_maps t
  funext y
  show V c main_arg7 (((cfg1.win 1).blk t).view.emb y) = V c main_arg7 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem wblock3 (c : Dev nD) (t : Fin cfg1.N) : iblk1 V c 3 t = V c main_arg9 := by
  obtain ⟨-, -, -, -, -, e0, e1, -⟩ := index_maps t
  funext y
  show V c main_arg9 (((cfg1.win 3).blk t).view.emb y) = V c main_arg9 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The staged block of a bias row is the whole row. -/
theorem bblock2 (c : Dev nD) (t : Fin cfg1.N) : iblk1 V c 2 t = V c main_arg8 := by
  obtain ⟨-, -, -, -, e0, -⟩ := index_maps t
  funext y
  show V c main_arg8 (((cfg1.win 2).blk t).view.emb y) = V c main_arg8 y
  refine congrArg _ (funext fun a => Fin.ext ?_)
  match a with
  | ⟨0, _⟩ => show win1_2.index t (0 : Fin 1) * 128 + 1 * (y 0).val = (y 0).val; omega

theorem bblock4 (c : Dev nD) (t : Fin cfg1.N) : iblk1 V c 4 t = V c main_arg10 := by
  obtain ⟨-, -, -, -, -, -, -, e0, -⟩ := index_maps t
  funext y
  show V c main_arg10 (((cfg1.win 4).blk t).view.emb y) = V c main_arg10 y
  refine congrArg _ (funext fun a => Fin.ext ?_)
  match a with
  | ⟨0, _⟩ => show win1_4.index t (0 : Fin 1) * 128 + 1 * (y 0).val = (y 0).val; omega

/-- Row `p` of the staged input block at point `t` is row `2000 t + p` of the input array. -/
theorem xrow (c : Dev nD) (t : Fin cfg1.N) (p : Fin 2000) (r : Fin 50000) (hr : r.val = t.val * 2000 + p.val) :
    row (iblk1 V c 0 t) p = row (V c main_v40) r := by
  obtain ⟨e0, e1, -⟩ := index_maps t
  funext j
  show V c main_v40 (((cfg1.win 0).blk t).view.emb (ix2 p j)) = V c main_v40 (ix2 r j)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * j.val = j.val; omega

/-- What point `t` writes back is block `t` of the node update of the input array. -/
theorem flushed_eq (c : Dev nD) (t : Fin cfg1.N) :
    (dat1 V c).flushed 5 t = ((cfg1.win 5).blk t).view.read (Elt Ideal)
      (mlp (V c main_v40) (V c main_arg7) (V c main_arg8) (V c main_arg9) (V c main_arg10)) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S128x128) zero2, View.ld_unit_zero (S := S128) zero1]
  rw [wblock1, bblock2, wblock3, bblock4]
  obtain ⟨-, -, -, -, -, -, -, -, e0, e1⟩ := index_maps t
  funext j
  obtain ⟨p, q, rfl⟩ : ∃ (p : Fin 2000) (q : Fin 128), j = ix2 p q := ⟨j 0, j 1, eq_ix2 j⟩
  have ht : t.val < 25 := t.isLt
  let r : Fin 50000 := ⟨t.val * 2000 + p.val, by have := p.isLt; omega⟩
  have hemb : ((cfg1.win 5).blk t).view.emb (ix2 p q) = ix2 r q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (iblk1 V c 0 t) (V c main_arg7) (V c main_arg8) (V c main_arg9) (V c main_arg10) (ix2 p q)
    = mlp (V c main_v40) (V c main_arg7) (V c main_arg8) (V c main_arg9) (V c main_arg10) (((cfg1.win 5).blk t).view.emb (ix2 p q))
  rw [hemb, mlp_apply, ← xrow V c t p r rfl]
  exact Body.pay_mlp _ _ _ _ _ p q

/-- An index of the output array is in point `t`'s block iff each coordinate is in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- The 25 row blocks tile the output: row `i` lies in the block of point `i / 2000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨-, -, -, -, -, -, -, -, e0, e1⟩ := index_maps t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the call: the node update of the input array as the call finds it. -/
theorem value (c : Dev nD) :
    (dat1 V c).arrAt 5 cfg1.N = mlp (V c main_v40) (V c main_arg7) (V c main_arg8) (V c main_arg9) (V c main_arg10) :=
  (dat1 V c).arrAt_eq_of_cover 5 _ (fun t _ => flushed_eq V c t) cover

end Cert.Gin.Round1

end
-- ==== Proof.Round2.lean ====
/-
  Round 3 of message passing: what the tiled node-update call leaves in its output array.

  The call walks 25 grid points; point `t` stages rows `2000 t … 2000 t + 1999` of the input, the whole of both
  weight matrices and bias rows, and writes back rows `2000 t … 2000 t + 1999` of the output. A row of the stored
  block is the node update of the same row of the loaded block (`Cert.Gin.Body.pay_mlp`), and that row of the loaded
  block is row `2000 t + p` of the input array; the 25 blocks tile the 50000 rows. So the output array ends as the
  node update (`Cert.Gin.mlp`) of the input array, whatever the arrays hold when the call is entered.
-/
import proofs.«117396_j5025111736763_1_alg».proof.Proof.Gen.KernelIdeal.Frame
import proofs.«117396_j5025111736763_1_alg».proof.Proof.Payload

set_option maxRecDepth 16384

noncomputable section

namespace Cert.Gin.Round2

open Idealize.ShloMosaic Idealize.ShloMosaic.TcCoe Idealize.ShloMosaic.ValueIdx Idealize.SL.Sem
open Cert.KernelIdeal Cert.KernelIdeal.Gen Cert.Gin
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row blocks of input and output move with the point, the weights and
    biases stay at block 0. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The staged block of a weight matrix is the whole matrix. -/
theorem wblock1 (c : Dev nD) (t : Fin cfg2.N) : iblk2 V c 1 t = V c main_arg11 := by
  obtain ⟨-, -, e0, e1, -⟩ := index_maps t
  funext y
  show V c main_arg11 (((cfg2.win 1).blk t).view.emb y) = V c main_arg11 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem wblock3 (c : Dev nD) (t : Fin cfg2.N) : iblk2 V c 3 t = V c main_arg13 := by
  obtain ⟨-, -, -, -, -, e0, e1, -⟩ := index_maps t
  funext y
  show V c main_arg13 (((cfg2.win 3).blk t).view.emb y) = V c main_arg13 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The staged block of a bias row is the whole row. -/
theorem bblock2 (c : Dev nD) (t : Fin cfg2.N) : iblk2 V c 2 t = V c main_arg12 := by
  obtain ⟨-, -, -, -, e0, -⟩ := index_maps t
  funext y
  show V c main_arg12 (((cfg2.win 2).blk t).view.emb y) = V c main_arg12 y
  refine congrArg _ (funext fun a => Fin.ext ?_)
  match a with
  | ⟨0, _⟩ => show win2_2.index t (0 : Fin 1) * 128 + 1 * (y 0).val = (y 0).val; omega

theorem bblock4 (c : Dev nD) (t : Fin cfg2.N) : iblk2 V c 4 t = V c main_arg14 := by
  obtain ⟨-, -, -, -, -, -, -, e0, -⟩ := index_maps t
  funext y
  show V c main_arg14 (((cfg2.win 4).blk t).view.emb y) = V c main_arg14 y
  refine congrArg _ (funext fun a => Fin.ext ?_)
  match a with
  | ⟨0, _⟩ => show win2_4.index t (0 : Fin 1) * 128 + 1 * (y 0).val = (y 0).val; omega

/-- Row `p` of the staged input block at point `t` is row `2000 t + p` of the input array. -/
theorem xrow (c : Dev nD) (t : Fin cfg2.N) (p : Fin 2000) (r : Fin 50000) (hr : r.val = t.val * 2000 + p.val) :
    row (iblk2 V c 0 t) p = row (V c main_v59) r := by
  obtain ⟨e0, e1, -⟩ := index_maps t
  funext j
  show V c main_v59 (((cfg2.win 0).blk t).view.emb (ix2 p j)) = V c main_v59 (ix2 r j)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * j.val = j.val; omega

/-- What point `t` writes back is block `t` of the node update of the input array. -/
theorem flushed_eq (c : Dev nD) (t : Fin cfg2.N) :
    (dat2 V c).flushed 5 t = ((cfg2.win 5).blk t).view.read (Elt Ideal)
      (mlp (V c main_v59) (V c main_arg11) (V c main_arg12) (V c main_arg13) (V c main_arg14)) := by
  show (cfg2.win 5).cut (grid2.coords t) ((dat2 V c).after 5 t) = _
  rw [after2_5]
  unfold out2_5
  rw [View.canon_unit_zero zero2]
  simp only [View.ld_unit_zero (S := S2000x128) zero2, View.ld_unit_zero (S := S128x128) zero2, View.ld_unit_zero (S := S128) zero1]
  rw [wblock1, bblock2, wblock3, bblock4]
  obtain ⟨-, -, -, -, -, -, -, -, e0, e1⟩ := index_maps t
  funext j
  obtain ⟨p, q, rfl⟩ : ∃ (p : Fin 2000) (q : Fin 128), j = ix2 p q := ⟨j 0, j 1, eq_ix2 j⟩
  have ht : t.val < 25 := t.isLt
  let r : Fin 50000 := ⟨t.val * 2000 + p.val, by have := p.isLt; omega⟩
  have hemb : ((cfg2.win 5).blk t).view.emb (ix2 p q) = ix2 r q := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay1 (iblk2 V c 0 t) (V c main_arg11) (V c main_arg12) (V c main_arg13) (V c main_arg14) (ix2 p q)
    = mlp (V c main_v59) (V c main_arg11) (V c main_arg12) (V c main_arg13) (V c main_arg14) (((cfg2.win 5).blk t).view.emb (ix2 p q))
  rw [hemb, mlp_apply, ← xrow V c t p r rfl]
  exact Body.pay_mlp _ _ _ _ _ p q

/-- An index of the output array is in point `t`'s block iff each coordinate is in the block's range. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v60).slice (win2_5.rect t)).set ↔ _
  rw [View.set_slice_whole, Rect.mem_set_unit]
  exact Iff.rfl

/-- The 25 row blocks tile the output: row `i` lies in the block of point `i / 2000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 2000, by show (i 0).val / 2000 < 25; omega⟩
  obtain ⟨-, -, -, -, -, -, -, -, e0, e1⟩ := index_maps t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE OUTPUT ARRAY after the call: the node update of the input array as the call finds it. -/
theorem value (c : Dev nD) :
    (dat2 V c).arrAt 5 cfg2.N = mlp (V c main_v59) (V c main_arg11) (V c main_arg12) (V c main_arg13) (V c main_arg14) :=
  (dat2 V c).arrAt_eq_of_cover 5 _ (fun t _ => flushed_eq V c t) cover

end Cert.Gin.Round2

end
-- ==== Proof.Round3.lean ====
/-
  The read-out call: what it leaves in its output array.

  The call has a single grid point, which stages the whole pooled array, both weight matrices and both bias rows
  and writes back the whole 64 × 2 result. A row of the stored block is the read-out (`Cert.Gin.ffnRow`) of the same
  row of the pooled array (`Cert.Gin.Body.pay_ffn`), so the output array ends as `Cert.Gin.ffn` of the pooled array,
  whatever the arrays hold when the call is entered.
-/
import proofs.«117396_j5025111736763_1_alg».proof.Proof.Gen.KernelIdeal.Frame
import proofs.«117396_j5025111736763_1_alg».proof.Proof.Payload

set_option maxRecDepth 16384

noncomputable section

namespace Cert.Gin.Round3

open Idealize.ShloMosaic Idealize.ShloMosaic.TcCoe Idealize.ShloMosaic.ValueIdx Idealize.SL.Sem
open Cert.KernelIdeal Cert.KernelIdeal.Gen Cert.Gin
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps at the one grid point: every window sits at block 0. -/
theorem index_maps : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-! Each staged block is the whole of its array. -/

theorem block0 (c : Dev nD) (t : Fin cfg3.N) : iblk3 V c 0 t = V c main_v72 := by
  have e := index_maps t
  funext y
  show V c main_v72 (((cfg3.win 0).blk t).view.emb y) = V c main_v72 y
  refine congrArg _ (funext fun a => Fin.ext ?_)
  match a with
  | ⟨0, _⟩ => show win3_0.index t (0 : Fin 2) * 64 + 1 * (y 0).val = (y 0).val; omega
  | ⟨1, _⟩ => show win3_0.index t (1 : Fin 2) * 128 + 1 * (y 1).val = (y 1).val; omega

theorem block1 (c : Dev nD) (t : Fin cfg3.N) : iblk3 V c 1 t = V c main_arg15 := by
  have e := index_maps t
  funext y
  show V c main_arg15 (((cfg3.win 1).blk t).view.emb y) = V c main_arg15 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

theorem block2 (c : Dev nD) (t : Fin cfg3.N) : iblk3 V c 2 t = V c main_arg16 := by
  have e := index_maps t
  funext y
  show V c main_arg16 (((cfg3.win 2).blk t).view.emb y) = V c main_arg16 y
  refine congrArg _ (funext fun a => Fin.ext ?_)
  match a with
  | ⟨0, _⟩ => show win3_2.index t (0 : Fin 1) * 128 + 1 * (y 0).val = (y 0).val; omega

theorem block3 (c : Dev nD) (t : Fin cfg3.N) : iblk3 V c 3 t = V c main_arg17 := by
  have e := index_maps t
  funext y
  show V c main_arg17 (((cfg3.win 3).blk t).view.emb y) = V c main_arg17 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 2 + 1 * (y 1).val = (y 1).val; omega

theorem block4 (c : Dev nD) (t : Fin cfg3.N) : iblk3 V c 4 t = V c main_arg18 := by
  have e := index_maps t
  funext y
  show V c main_arg18 (((cfg3.win 4).blk t).view.emb y) = V c main_arg18 y
  refine congrArg _ (funext fun a => Fin.ext ?_)
  match a with
  | ⟨0, _⟩ => show win3_4.index t (0 : Fin 1) * 2 + 1 * (y 0).val = (y 0).val; omega

/-- What the one point writes back is the whole read-out of the pooled array. -/
theorem flushed_eq (c : Dev nD) (t : Fin cfg3.N) :
    (dat3 V c).flushed 5 t = ((cfg3.win 5).blk t).view.read (Elt Ideal)
      (ffn (V c main_v72) (V c main_arg15) (V c main_arg16) (V c main_arg17) (V c main_arg18)) := by
  show (cfg3.win 5).cut (grid3.coords t) ((dat3 V c).after 5 t) = _
  rw [after3_5]
  unfold out3_5
  rw [View.canon_unit_zero zero2]
  simp only [View.ld_unit_zero (S := S64x128) zero2, View.ld_unit_zero (S := S128x128) zero2, View.ld_unit_zero (S := S128) zero1,
    View.ld_unit_zero (S := S128x2) zero2, View.ld_unit_zero (S := S2) zero1]
  rw [block0, block1, block2, block3, block4]
  obtain ⟨-, -, -, -, -, -, -, -, e0, e1⟩ := index_maps t
  funext j
  obtain ⟨p, q, rfl⟩ : ∃ (p : Fin 64) (q : Fin 2), j = ix2 p q := ⟨j 0, j 1, eq_ix2 j⟩
  have hemb : ((cfg3.win 5).blk t).view.emb (ix2 p q) = ix2 p q := by
    funext a; apply Fin.ext
    match a with
    | ⟨0, _⟩ => show win3_5.index t (0 : Fin 2) * 64 + 1 * p.val = p.val; omega
    | ⟨1, _⟩ => show win3_5.index t (1 : Fin 2) * 2 + 1 * q.val = q.val; omega
  show k3_pay1 (V c main_v72) (V c main_arg15) (V c main_arg16) (V c main_arg17) (V c main_arg18) (ix2 p q)
    = ffn (V c main_v72) (V c main_arg15) (V c main_arg16) (V c main_arg17) (V c main_arg18) (((cfg3.win 5).blk t).view.emb (ix2 p q))
  rw [hemb, ffn_apply]
  exact Body.pay_ffn _ _ _ _ _ p q

/-- An index of the output array is in the point's block iff each coordinate is in the block's range. -/
theorem mem_blk (t : Fin cfg3.N) (i : S64x2.Idx) :
    i ∈ ((cfg3.win 5).blk t).view.set ↔ ∀ a : Fin 2, win3_5.index t a * S64x2.size a ≤ (i a).val ∧ (i a).val < win3_5.index t a * S64x2.size a + S64x2.size a := by
  show i ∈ ((View.whole main_v73).slice (win3_5.rect t)).set ↔ _
  rw [View.set_slice_whole, Rect.mem_set_unit]
  exact Iff.rfl

/-- The one block is the whole output. -/
theorem cover (i : S64x2.Idx) :
    ∃ t : Fin cfg3.N, (cfg3.win 5).flush t = true ∧ i ∈ ((cfg3.win 5).blk t).view.set := by
  have hi0 : (i 0).val < 64 := (i 0).isLt
  have hi1 : (i 1).val < 2 := (i 1).isLt
  let t : Fin cfg3.N := ⟨0, by show 0 < 1; omega⟩
  obtain ⟨-, -, -, -, -, -, -, -, e0, e1⟩ := index_maps t
  refine ⟨t, flush3_5 t, ?_⟩
  rw [mem_blk]
  intro a
  match a with
  | ⟨0, _⟩ => show win3_5.index t (0 : Fin 2) * 64 ≤ (i 0).val ∧ (i 0).val < win3_5.index t (0 : Fin 2) * 64 + 64; omega
  | ⟨1, _⟩ => show win3_5.index t (1 : Fin 2) * 2 ≤ (i 1).val ∧ (i 1).val < win3_5.index t (1 : Fin 2) * 2 + 2; omega

/-- THE OUTPUT ARRAY after the call: the read-out of the pooled array as the call finds it. -/
theorem value (c : Dev nD) :
    (dat3 V c).arrAt 5 cfg3.N = ffn (V c main_v72) (V c main_arg15) (V c main_arg16) (V c main_arg17) (V c main_arg18) :=
  (dat3 V c).arrAt_eq_of_cover 5 _ (fun t _ => flushed_eq V c t) cover

end Cert.Gin.Round3

end
-- ==== Proof.KernelRun.lean ====
/-
  The tiled program's run, read: what its result array holds when it returns.

  Between the launch and the return the TensorCore's buffers pass eight boundaries: a stretch of host operations,
  then a call, four times over. Nothing ever writes an argument array, and the two index vectors cut from the edge
  list are written once, by the first stretch; so at every boundary they hold what they held at first. Each stretch
  leaves its last buffer at the shared host-side function (`Cert.Gin.aggregate`, `Cert.Gin.pool`) of the buffers it
  reads, and each call leaves its output array at the node update (or the read-out) of its input array. Reading the
  result buffer back through the eight boundaries gives `Cert.Gin.network` of the arguments.
-/
import proofs.«117396_j5025111736763_1_alg».proof.Proof.Gen.KernelIdeal.Frame
import proofs.«117396_j5025111736763_1_alg».proof.Proof.Network
import proofs.«117396_j5025111736763_1_alg».proof.Proof.Round0
import proofs.«117396_j5025111736763_1_alg».proof.Proof.Round1
import proofs.«117396_j5025111736763_1_alg».proof.Proof.Round2
import proofs.«117396_j5025111736763_1_alg».proof.Proof.Round3

set_option maxRecDepth 16384

noncomputable section

namespace Cert.Gin

open Idealize.ShloMosaic Idealize.ShloMosaic.TcCoe Idealize.SL.Sem
open Cert.KernelIdeal Cert.KernelIdeal.Gen

namespace Run

variable (m : (ℓ : Loc nD τ sig) → Buf (Elt Ideal) ℓ) (ρ : Dev nD → PrngReg)

/-- A stretch of host operations leaves a buffer none of them writes as it found it. -/
local macro "untouched" ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The weights and biases, where each call finds them: as launched -/

theorem main_arg3_at1 (c : Dev nD) : W1 m ρ c (Proc.devRef .tc main_arg3) = m ((c : Thread nD τ).loc main_arg3) :=
  calc W1 m ρ c (Proc.devRef .tc main_arg3)
    _ = W0 m ρ c (Proc.devRef .tc main_arg3) := untouched hostOps0
    _ = m ((c : Thread nD τ).loc main_arg3) := rfl
theorem main_arg4_at1 (c : Dev nD) : W1 m ρ c (Proc.devRef .tc main_arg4) = m ((c : Thread nD τ).loc main_arg4) :=
  calc W1 m ρ c (Proc.devRef .tc main_arg4)
    _ = W0 m ρ c (Proc.devRef .tc main_arg4) := untouched hostOps0
    _ = m ((c : Thread nD τ).loc main_arg4) := rfl
theorem main_arg5_at1 (c : Dev nD) : W1 m ρ c (Proc.devRef .tc main_arg5) = m ((c : Thread nD τ).loc main_arg5) :=
  calc W1 m ρ c (Proc.devRef .tc main_arg5)
    _ = W0 m ρ c (Proc.devRef .tc main_arg5) := untouched hostOps0
    _ = m ((c : Thread nD τ).loc main_arg5) := rfl
theorem main_arg6_at1 (c : Dev nD) : W1 m ρ c (Proc.devRef .tc main_arg6) = m ((c : Thread nD τ).loc main_arg6) :=
  calc W1 m ρ c (Proc.devRef .tc main_arg6)
    _ = W0 m ρ c (Proc.devRef .tc main_arg6) := untouched hostOps0
    _ = m ((c : Thread nD τ).loc main_arg6) := rfl
theorem main_arg7_at3 (c : Dev nD) : W3 m ρ c (Proc.devRef .tc main_arg7) = m ((c : Thread nD τ).loc main_arg7) :=
  calc W3 m ρ c (Proc.devRef .tc main_arg7)
    _ = W2 m ρ c (Proc.devRef .tc main_arg7) := untouched hostOps1
    _ = W1 m ρ c (Proc.devRef .tc main_arg7) := W2_of_ne m ρ c main_arg7 (by decide)
    _ = W0 m ρ c (Proc.devRef .tc main_arg7) := untouched hostOps0
    _ = m ((c : Thread nD τ).loc main_arg7) := rfl
theorem main_arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := untouched hostOps1
    _ = W1 m ρ c (Proc.devRef .tc main_arg8) := W2_of_ne m ρ c main_arg8 (by decide)
    _ = W0 m ρ c (Proc.devRef .tc main_arg8) := untouched hostOps0
    _ = m ((c : Thread nD τ).loc main_arg8) := rfl
theorem main_arg9_at3 (c : Dev nD) : W3 m ρ c (Proc.devRef .tc main_arg9) = m ((c : Thread nD τ).loc main_arg9) :=
  calc W3 m ρ c (Proc.devRef .tc main_arg9)
    _ = W2 m ρ c (Proc.devRef .tc main_arg9) := untouched hostOps1
    _ = W1 m ρ c (Proc.devRef .tc main_arg9) := W2_of_ne m ρ c main_arg9 (by decide)
    _ = W0 m ρ c (Proc.devRef .tc main_arg9) := untouched hostOps0
    _ = m ((c : Thread nD τ).loc main_arg9) := rfl
theorem main_arg10_at3 (c : Dev nD) : W3 m ρ c (Proc.devRef .tc main_arg10) = m ((c : Thread nD τ).loc main_arg10) :=
  calc W3 m ρ c (Proc.devRef .tc main_arg10)
    _ = W2 m ρ c (Proc.devRef .tc main_arg10) := untouched hostOps1
    _ = W1 m ρ c (Proc.devRef .tc main_arg10) := W2_of_ne m ρ c main_arg10 (by decide)
    _ = W0 m ρ c (Proc.devRef .tc main_arg10) := untouched hostOps0
    _ = m ((c : Thread nD τ).loc main_arg10) := rfl
theorem main_arg11_at5 (c : Dev nD) : W5 m ρ c (Proc.devRef .tc main_arg11) = m ((c : Thread nD τ).loc main_arg11) :=
  calc W5 m ρ c (Proc.devRef .tc main_arg11)
    _ = W4 m ρ c (Proc.devRef .tc main_arg11) := untouched hostOps2
    _ = W3 m ρ c (Proc.devRef .tc main_arg11) := W4_of_ne m ρ c main_arg11 (by decide)
    _ = W2 m ρ c (Proc.devRef .tc main_arg11) := untouched hostOps1
    _ = W1 m ρ c (Proc.devRef .tc main_arg11) := W2_of_ne m ρ c main_arg11 (by decide)
    _ = W0 m ρ c (Proc.devRef .tc main_arg11) := untouched hostOps0
    _ = m ((c : Thread nD τ).loc main_arg11) := rfl
theorem main_arg12_at5 (c : Dev nD) : W5 m ρ c (Proc.devRef .tc main_arg12) = m ((c : Thread nD τ).loc main_arg12) :=
  calc W5 m ρ c (Proc.devRef .tc main_arg12)
    _ = W4 m ρ c (Proc.devRef .tc main_arg12) := untouched hostOps2
    _ = W3 m ρ c (Proc.devRef .tc main_arg12) := W4_of_ne m ρ c main_arg12 (by decide)
    _ = W2 m ρ c (Proc.devRef .tc main_arg12) := untouched hostOps1
    _ = W1 m ρ c (Proc.devRef .tc main_arg12) := W2_of_ne m ρ c main_arg12 (by decide)
    _ = W0 m ρ c (Proc.devRef .tc main_arg12) := untouched hostOps0
    _ = m ((c : Thread nD τ).loc main_arg12) := rfl
theorem main_arg13_at5 (c : Dev nD) : W5 m ρ c (Proc.devRef .tc main_arg13) = m ((c : Thread nD τ).loc main_arg13) :=
  calc W5 m ρ c (Proc.devRef .tc main_arg13)
    _ = W4 m ρ c (Proc.devRef .tc main_arg13) := untouched hostOps2
    _ = W3 m ρ c (Proc.devRef .tc main_arg13) := W4_of_ne m ρ c main_arg13 (by decide)
    _ = W2 m ρ c (Proc.devRef .tc main_arg13) := untouched hostOps1
    _ = W1 m ρ c (Proc.devRef .tc main_arg13) := W2_of_ne m ρ c main_arg13 (by decide)
    _ = W0 m ρ c (Proc.devRef .tc main_arg13) := untouched hostOps0
    _ = m ((c : Thread nD τ).loc main_arg13) := rfl
theorem main_arg14_at5 (c : Dev nD) : W5 m ρ c (Proc.devRef .tc main_arg14) = m ((c : Thread nD τ).loc main_arg14) :=
  calc W5 m ρ c (Proc.devRef .tc main_arg14)
    _ = W4 m ρ c (Proc.devRef .tc main_arg14) := untouched hostOps2
    _ = W3 m ρ c (Proc.devRef .tc main_arg14) := W4_of_ne m ρ c main_arg14 (by decide)
    _ = W2 m ρ c (Proc.devRef .tc main_arg14) := untouched hostOps1
    _ = W1 m ρ c (Proc.devRef .tc main_arg14) := W2_of_ne m ρ c main_arg14 (by decide)
    _ = W0 m ρ c (Proc.devRef .tc main_arg14) := untouched hostOps0
    _ = m ((c : Thread nD τ).loc main_arg14) := rfl
theorem main_arg15_at7 (c : Dev nD) : W7 m ρ c (Proc.devRef .tc main_arg15) = m ((c : Thread nD τ).loc main_arg15) :=
  calc W7 m ρ c (Proc.devRef .tc main_arg15)
    _ = W6 m ρ c (Proc.devRef .tc main_arg15) := untouched hostOps3
    _ = W5 m ρ c (Proc.devRef .tc main_arg15) := W6_of_ne m ρ c main_arg15 (by decide)
    _ = W4 m ρ c (Proc.devRef .tc main_arg15) := untouched hostOps2
    _ = W3 m ρ c (Proc.devRef .tc main_arg15) := W4_of_ne m ρ c main_arg15 (by decide)
    _ = W2 m ρ c (Proc.devRef .tc main_arg15) := untouched hostOps1
    _ = W1 m ρ c (Proc.devRef .tc main_arg15) := W2_of_ne m ρ c main_arg15 (by decide)
    _ = W0 m ρ c (Proc.devRef .tc main_arg15) := untouched hostOps0
    _ = m ((c : Thread nD τ).loc main_arg15) := rfl
theorem main_arg16_at7 (c : Dev nD) : W7 m ρ c (Proc.devRef .tc main_arg16) = m ((c : Thread nD τ).loc main_arg16) :=
  calc W7 m ρ c (Proc.devRef .tc main_arg16)
    _ = W6 m ρ c (Proc.devRef .tc main_arg16) := untouched hostOps3
    _ = W5 m ρ c (Proc.devRef .tc main_arg16) := W6_of_ne m ρ c main_arg16 (by decide)
    _ = W4 m ρ c (Proc.devRef .tc main_arg16) := untouched hostOps2
    _ = W3 m ρ c (Proc.devRef .tc main_arg16) := W4_of_ne m ρ c main_arg16 (by decide)
    _ = W2 m ρ c (Proc.devRef .tc main_arg16) := untouched hostOps1
    _ = W1 m ρ c (Proc.devRef .tc main_arg16) := W2_of_ne m ρ c main_arg16 (by decide)
    _ = W0 m ρ c (Proc.devRef .tc main_arg16) := untouched hostOps0
    _ = m ((c : Thread nD τ).loc main_arg16) := rfl
theorem main_arg17_at7 (c : Dev nD) : W7 m ρ c (Proc.devRef .tc main_arg17) = m ((c : Thread nD τ).loc main_arg17) :=
  calc W7 m ρ c (Proc.devRef .tc main_arg17)
    _ = W6 m ρ c (Proc.devRef .tc main_arg17) := untouched hostOps3
    _ = W5 m ρ c (Proc.devRef .tc main_arg17) := W6_of_ne m ρ c main_arg17 (by decide)
    _ = W4 m ρ c (Proc.devRef .tc main_arg17) := untouched hostOps2
    _ = W3 m ρ c (Proc.devRef .tc main_arg17) := W4_of_ne m ρ c main_arg17 (by decide)
    _ = W2 m ρ c (Proc.devRef .tc main_arg17) := untouched hostOps1
    _ = W1 m ρ c (Proc.devRef .tc main_arg17) := W2_of_ne m ρ c main_arg17 (by decide)
    _ = W0 m ρ c (Proc.devRef .tc main_arg17) := untouched hostOps0
    _ = m ((c : Thread nD τ).loc main_arg17) := rfl
theorem main_arg18_at7 (c : Dev nD) : W7 m ρ c (Proc.devRef .tc main_arg18) = m ((c : Thread nD τ).loc main_arg18) :=
  calc W7 m ρ c (Proc.devRef .tc main_arg18)
    _ = W6 m ρ c (Proc.devRef .tc main_arg18) := untouched hostOps3
    _ = W5 m ρ c (Proc.devRef .tc main_arg18) := W6_of_ne m ρ c main_arg18 (by decide)
    _ = W4 m ρ c (Proc.devRef .tc main_arg18) := untouched hostOps2
    _ = W3 m ρ c (Proc.devRef .tc main_arg18) := W4_of_ne m ρ c main_arg18 (by decide)
    _ = W2 m ρ c (Proc.devRef .tc main_arg18) := untouched hostOps1
    _ = W1 m ρ c (Proc.devRef .tc main_arg18) := W2_of_ne m ρ c main_arg18 (by decide)
    _ = W0 m ρ c (Proc.devRef .tc main_arg18) := untouched hostOps0
    _ = m ((c : Thread nD τ).loc main_arg18) := rfl

/-- The graph index vector, where the pooling stretch finds it: as launched. -/
theorem main_arg2_at6 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := untouched hostOps2
    _ = W3 m ρ c (Proc.devRef .tc main_arg2) := W4_of_ne m ρ c main_arg2 (by decide)
    _ = W2 m ρ c (Proc.devRef .tc main_arg2) := untouched hostOps1
    _ = W1 m ρ c (Proc.devRef .tc main_arg2) := W2_of_ne m ρ c main_arg2 (by decide)
    _ = W0 m ρ c (Proc.devRef .tc main_arg2) := untouched hostOps0
    _ = m ((c : Thread nD τ).loc main_arg2) := rfl

/-! ## The first stretch: the index vectors and the first neighbourhood sum -/

theorem sources_at1 (c : Dev nD) : W1 m ρ c (Proc.devRef .tc main_v1) = sources (F := Ideal) (m ((c : Thread nD τ).loc main_arg1)) := by
  show StableHlo.after hostOps0 (W0 m ρ c) (Proc.devRef .tc main_v1) = _
  dsimp only [hostOps0]
  after_results_simp
  rfl

theorem targets_at1 (c : Dev nD) : W1 m ρ c (Proc.devRef .tc main_v3) = targets (F := Ideal) (m ((c : Thread nD τ).loc main_arg1)) := by
  show StableHlo.after hostOps0 (W0 m ρ c) (Proc.devRef .tc main_v3) = _
  dsimp only [hostOps0]
  after_results_simp
  rfl

set_option maxHeartbeats 4000000 in
theorem sum_at1 (c : Dev nD) : W1 m ρ c (Proc.devRef .tc main_v21)
    = aggregate (F := Ideal) (m ((c : Thread nD τ).loc main_arg0)) (sources (F := Ideal) (m ((c : Thread nD τ).loc main_arg1))) (targets (F := Ideal) (m ((c : Thread nD τ).loc main_arg1))) := by
  show StableHlo.after hostOps0 (W0 m ρ c) (Proc.devRef .tc main_v21) = _
  dsimp only [hostOps0]
  after_results_simp
  rfl

/-! ## The index vectors at the later stretches: nothing writes them again -/

theorem sources_at2 (c : Dev nD) : W2 m ρ c (Proc.devRef .tc main_v1) = sources (F := Ideal) (m ((c : Thread nD τ).loc main_arg1)) :=
  (W2_of_ne m ρ c main_v1 (by decide)).trans (sources_at1 m ρ c)
theorem targets_at2 (c : Dev nD) : W2 m ρ c (Proc.devRef .tc main_v3) = targets (F := Ideal) (m ((c : Thread nD τ).loc main_arg1)) :=
  (W2_of_ne m ρ c main_v3 (by decide)).trans (targets_at1 m ρ c)
theorem sources_at4 (c : Dev nD) : W4 m ρ c (Proc.devRef .tc main_v1) = sources (F := Ideal) (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := untouched hostOps1
    _ = _ := sources_at2 m ρ c
theorem targets_at4 (c : Dev nD) : W4 m ρ c (Proc.devRef .tc main_v3) = targets (F := Ideal) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := untouched hostOps1
    _ = _ := targets_at2 m ρ c

/-! ## The later stretches, each at the buffers it reads -/

set_option maxHeartbeats 4000000 in
theorem sum_at3 (c : Dev nD) : W3 m ρ c (Proc.devRef .tc main_v40)
    = aggregate (F := Ideal) (W2 m ρ c (Proc.devRef .tc main_v22)) (W2 m ρ c (Proc.devRef .tc main_v1)) (W2 m ρ c (Proc.devRef .tc main_v3)) := by
  show StableHlo.after hostOps1 (W2 m ρ c) (Proc.devRef .tc main_v40) = _
  dsimp only [hostOps1]
  after_results_simp
  rfl

set_option maxHeartbeats 4000000 in
theorem sum_at5 (c : Dev nD) : W5 m ρ c (Proc.devRef .tc main_v59)
    = aggregate (F := Ideal) (W4 m ρ c (Proc.devRef .tc main_v41)) (W4 m ρ c (Proc.devRef .tc main_v1)) (W4 m ρ c (Proc.devRef .tc main_v3)) := by
  show StableHlo.after hostOps2 (W4 m ρ c) (Proc.devRef .tc main_v59) = _
  dsimp only [hostOps2]
  after_results_simp
  rfl

set_option maxHeartbeats 4000000 in
theorem mean_at7 (c : Dev nD) : W7 m ρ c (Proc.devRef .tc main_v72)
    = pool (F := Ideal) (W6 m ρ c (Proc.devRef .tc main_v60)) (W6 m ρ c (Proc.devRef .tc main_arg2)) := by
  show StableHlo.after hostOps3 (W6 m ρ c) (Proc.devRef .tc main_v72) = _
  dsimp only [hostOps3]
  after_results_simp
  rfl

/-! ## The four calls, each at the contents it is entered with -/

theorem update_at2 (c : Dev nD) : W2 m ρ c (Proc.devRef .tc main_v22)
    = mlp (W1 m ρ c (Proc.devRef .tc main_v21)) (W1 m ρ c (Proc.devRef .tc main_arg3)) (W1 m ρ c (Proc.devRef .tc main_arg4))
        (W1 m ρ c (Proc.devRef .tc main_arg5)) (W1 m ρ c (Proc.devRef .tc main_arg6)) :=
  (W2_arr m ρ c 5).trans (Round0.value (V1 m ρ) c)

theorem update_at4 (c : Dev nD) : W4 m ρ c (Proc.devRef .tc main_v41)
    = mlp (W3 m ρ c (Proc.devRef .tc main_v40)) (W3 m ρ c (Proc.devRef .tc main_arg7)) (W3 m ρ c (Proc.devRef .tc main_arg8))
        (W3 m ρ c (Proc.devRef .tc main_arg9)) (W3 m ρ c (Proc.devRef .tc main_arg10)) :=
  (W4_arr m ρ c 5).trans (Round1.value (V3 m ρ) c)

theorem update_at6 (c : Dev nD) : W6 m ρ c (Proc.devRef .tc main_v60)
    = mlp (W5 m ρ c (Proc.devRef .tc main_v59)) (W5 m ρ c (Proc.devRef .tc main_arg11)) (W5 m ρ c (Proc.devRef .tc main_arg12))
        (W5 m ρ c (Proc.devRef .tc main_arg13)) (W5 m ρ c (Proc.devRef .tc main_arg14)) :=
  (W6_arr m ρ c 5).trans (Round2.value (V5 m ρ) c)

theorem readout_at8 (c : Dev nD) : W8 m ρ c (Proc.devRef .tc main_v73)
    = ffn (W7 m ρ c (Proc.devRef .tc main_v72)) (W7 m ρ c (Proc.devRef .tc main_arg15)) (W7 m ρ c (Proc.devRef .tc main_arg16))
        (W7 m ρ c (Proc.devRef .tc main_arg17)) (W7 m ρ c (Proc.devRef .tc main_arg18)) :=
  (W8_arr m ρ c 5).trans (Round3.value (V7 m ρ) c)

/-! ## The node features after each round, as functions of the launch memory -/

/-- The node features after the first round. -/
def feat1 (c : Dev nD) : (⟨S50000x128, .f32⟩ : BufTy).Contents (Elt Ideal) :=
  mlp (aggregate (F := Ideal) (m ((c : Thread nD τ).loc main_arg0)) (sources (F := Ideal) (m ((c : Thread nD τ).loc main_arg1))) (targets (F := Ideal) (m ((c : Thread nD τ).loc main_arg1)))) (m ((c : Thread nD τ).loc main_arg3)) (m ((c : Thread nD τ).loc main_arg4)) (m ((c : Thread nD τ).loc main_arg5)) (m ((c : Thread nD τ).loc main_arg6))
/-- … after the second … -/
def feat2 (c : Dev nD) : (⟨S50000x128, .f32⟩ : BufTy).Contents (Elt Ideal) :=
  mlp (aggregate (F := Ideal) (feat1 m c) (sources (F := Ideal) (m ((c : Thread nD τ).loc main_arg1))) (targets (F := Ideal) (m ((c : Thread nD τ).loc main_arg1)))) (m ((c : Thread nD τ).loc main_arg7)) (m ((c : Thread nD τ).loc main_arg8)) (m ((c : Thread nD τ).loc main_arg9)) (m ((c : Thread nD τ).loc main_arg10))
/-- … and after the third. -/
def feat3 (c : Dev nD) : (⟨S50000x128, .f32⟩ : BufTy).Contents (Elt Ideal) :=
  mlp (aggregate (F := Ideal) (feat2 m c) (sources (F := Ideal) (m ((c : Thread nD τ).loc main_arg1))) (targets (F := Ideal) (m ((c : Thread nD τ).loc main_arg1)))) (m ((c : Thread nD τ).loc main_arg11)) (m ((c : Thread nD τ).loc main_arg12)) (m ((c : Thread nD τ).loc main_arg13)) (m ((c : Thread nD τ).loc main_arg14))

set_option maxHeartbeats 1000000 in
theorem feat1_at2 (c : Dev nD) : W2 m ρ c (Proc.devRef .tc main_v22) = feat1 m c := by
  rw [update_at2, sum_at1, main_arg3_at1, main_arg4_at1, main_arg5_at1, main_arg6_at1]
  rfl

set_option maxHeartbeats 1000000 in
theorem feat2_at4 (c : Dev nD) : W4 m ρ c (Proc.devRef .tc main_v41) = feat2 m c := by
  rw [update_at4, sum_at3, feat1_at2, sources_at2, targets_at2, main_arg7_at3, main_arg8_at3, main_arg9_at3, main_arg10_at3]
  rfl

set_option maxHeartbeats 1000000 in
theorem feat3_at6 (c : Dev nD) : W6 m ρ c (Proc.devRef .tc main_v60) = feat3 m c := by
  rw [update_at6, sum_at5, feat2_at4, sources_at4, targets_at4, main_arg11_at5, main_arg12_at5, main_arg13_at5, main_arg14_at5]
  rfl

set_option maxHeartbeats 1000000 in
/-- THE RESULT BUFFER at the return: the network of the argument arrays as launched. -/
theorem result_at8 (c : Dev nD) : W8 m ρ c (Proc.devRef .tc main_v73)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) (m ((c : Thread nD τ).loc main_arg18)) := by
  rw [readout_at8, mean_at7, feat3_at6, main_arg2_at6, main_arg15_at7, main_arg16_at7, main_arg17_at7, main_arg18_at7]
  rfl

/-! ## The run -/

section TheRun

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- THE RUN of the tiled program on extended reals: from any memory with zero counters every weakly fair execution
    terminates without a fault, the result array holds the network of the argument arrays as launched, and the
    argument arrays are unchanged: @main is launched as its eight segments (a stretch of host operations, then a call,
    four times), and at the last boundary every unscoped buffer is read against the final state — the arguments, which
    are as launched, and the result buffer, which is `result_at8`. -/
theorem run : θ_run defs (onTc (τ := τ) (main (F := Ideal))) ⟨m, fun _ => 0, ρ⟩ (fun r => ∀ c : Dev nD,
      r.2.mem ((c.tc : Thread nD τ).loc main_v73) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v73 (by decide))).trans (result_at8 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end TheRun

end Run

end Cert.Gin

end
-- ==== Proof.RefValue.lean ====
/-
  The plain program, read: its result is the same network of its arguments.

  Its host-side steps are, operation for operation, the shared functions `Cert.Gin.aggregate` and `Cert.Gin.pool` of
  the buffers they read. Each of its node updates is two whole-array matrix products with a bias row broadcast down the
  rows and the positive part taken against a zero splat; read at `(p, q)`, a host product is the sum over the contracted
  axis, the broadcast bias is the bias at `q`, the splat is the zero word: row `p` of the result is `Cert.Gin.mlpRow`
  of row `p` of the operand. The read-out is the same with a last layer without the positive part.
-/
import proofs.«117396_j5025111736763_1_alg».proof.Proof.Gen.ReferenceIdeal.Read
import proofs.«117396_j5025111736763_1_alg».proof.Proof.Network

set_option maxRecDepth 16384

noncomputable section

namespace Cert.Gin.Ref

open Idealize.ShloMosaic Idealize.ShloMosaic.TcCoe Idealize.ShloMosaic.ValueIdx Cert.Gin
open Cert.ReferenceIdeal Cert.ReferenceIdeal.Read
open scoped BigOperators

/-! ## The three host products, read at an index -/

theorem dot_nodes {φ₁ φ₂ : FTy} (a : FVec Ideal S50000x128 φ₁) (w : FVec Ideal S128x128 φ₂) (p : Fin 50000) (q : Fin 128) :
    Host.dotGeneral dot_S50000x128_S128x128_S50000x128_1_0_0_1_n_n none a w (ix2 p q) = ∑ j : Fin 128, a (ix2 p j) * w (ix2 j q) := by
  simp only [Host.dotGeneral]
  exact dotGeneral_ix2 dot_S50000x128_S128x128_S50000x128_1_0_0_1_n_n none _ rfl rfl lhs_main_v22_0 lhs_main_v22_1 rhs_main_v22_0 rhs_main_v22_1 a w p q

theorem dot_graphs {φ₁ φ₂ : FTy} (a : FVec Ideal S64x128 φ₁) (w : FVec Ideal S128x128 φ₂) (p : Fin 64) (q : Fin 128) :
    Host.dotGeneral dot_S64x128_S128x128_S64x128_1_0_0_1_n_n none a w (ix2 p q) = ∑ j : Fin 128, a (ix2 p j) * w (ix2 j q) := by
  simp only [Host.dotGeneral]
  exact dotGeneral_ix2 dot_S64x128_S128x128_S64x128_1_0_0_1_n_n none _ rfl rfl lhs_main_v100_0 lhs_main_v100_1 rhs_main_v100_0 rhs_main_v100_1 a w p q

theorem dot_classes {φ₁ φ₂ : FTy} (a : FVec Ideal S64x128 φ₁) (w : FVec Ideal S128x2 φ₂) (p : Fin 64) (q : Fin 2) :
    Host.dotGeneral dot_S64x128_S128x2_S64x2_1_0_0_1_n_n none a w (ix2 p q) = ∑ j : Fin 128, a (ix2 p j) * w (ix2 j q) := by
  simp only [Host.dotGeneral]
  exact dotGeneral_ix2 dot_S64x128_S128x2_S64x2_1_0_0_1_n_n none _ rfl rfl lhs_main_v105_0 lhs_main_v105_1 rhs_main_v105_0 rhs_main_v105_1 a w p q

/-! ## A bias row broadcast down the rows, and the zero splat -/

theorem bias_nodes (b : (⟨S128, .f32⟩ : BufTy).Contents (Elt Ideal)) (p : Fin 50000) (q : Fin 128) :
    val_main_v24 (F := Ideal) b (ix2 p q) = b (ix1 q) := by
  rw [val_main_v24_apply, val_main_v23_apply]
  exact congrArg b (funext fun a => match a with | ⟨0, _⟩ => rfl)

theorem bias_graphs (b : (⟨S128, .f32⟩ : BufTy).Contents (Elt Ideal)) (p : Fin 64) (q : Fin 128) :
    val_main_v102 (F := Ideal) b (ix2 p q) = b (ix1 q) := by
  rw [val_main_v102_apply, val_main_v101_apply]
  exact congrArg b (funext fun a => match a with | ⟨0, _⟩ => rfl)

theorem bias_classes (b : (⟨S2, .f32⟩ : BufTy).Contents (Elt Ideal)) (p : Fin 64) (q : Fin 2) :
    val_main_v107 (F := Ideal) b (ix2 p q) = b (ix1 q) := by
  rw [val_main_v107_apply, val_main_v106_apply]
  exact congrArg b (funext fun a => match a with | ⟨0, _⟩ => rfl)

theorem zero_nodes (i : S50000x128.Idx) : val_main_call0_v0 (F := Ideal) i = zero32 := by
  rw [val_main_call0_v0_apply, val_main_call0_cst_apply]; rfl

theorem zero_graphs (i : S64x128.Idx) : val_main_call6_v0 (F := Ideal) i = zero32 := by
  rw [val_main_call6_v0_apply, val_main_call6_cst_apply]; rfl

/-! ## One layer, then the node update and the read-out, as whole arrays -/

theorem layer_nodes (h : FVec Ideal S50000x128 .f32) (W : FVec Ideal S128x128 .f32)
    (b : FVec Ideal S128 .f32) (p : Fin 50000) (q : Fin 128) :
    maximumf (F := Ideal) (addf (F := Ideal) (Host.dotGeneral (F := Ideal) dot_S50000x128_S128x128_S50000x128_1_0_0_1_n_n none h W) (val_main_v24 (F := Ideal) b)) (val_main_call0_v0 (F := Ideal)) (ix2 p q)
      = denseRelu (row h p) W b q := by
  rw [maximumf_apply, addf_apply, dot_nodes, bias_nodes, zero_nodes]
  rfl

theorem layer_graphs (h : FVec Ideal S64x128 .f32) (W : FVec Ideal S128x128 .f32)
    (b : FVec Ideal S128 .f32) (p : Fin 64) (q : Fin 128) :
    maximumf (F := Ideal) (addf (F := Ideal) (Host.dotGeneral (F := Ideal) dot_S64x128_S128x128_S64x128_1_0_0_1_n_n none h W) (val_main_v102 (F := Ideal) b)) (val_main_call6_v0 (F := Ideal)) (ix2 p q)
      = denseRelu (row h p) W b q := by
  rw [maximumf_apply, addf_apply, dot_graphs, bias_graphs, zero_graphs]
  rfl

/-- Two layers on the node array are the node update of every row. -/
theorem mlp_nodes (h : FVec Ideal S50000x128 .f32) (Wa : FVec Ideal S128x128 .f32)
    (ba : FVec Ideal S128 .f32) (Wb : FVec Ideal S128x128 .f32)
    (bb : FVec Ideal S128 .f32) :
    maximumf (F := Ideal) (addf (F := Ideal) (Host.dotGeneral (F := Ideal) dot_S50000x128_S128x128_S50000x128_1_0_0_1_n_n none
        (maximumf (F := Ideal) (addf (F := Ideal) (Host.dotGeneral (F := Ideal) dot_S50000x128_S128x128_S50000x128_1_0_0_1_n_n none h Wa) (val_main_v24 (F := Ideal) ba)) (val_main_call0_v0 (F := Ideal))) Wb)
        (val_main_v24 (F := Ideal) bb)) (val_main_call0_v0 (F := Ideal))
      = mlp h Wa ba Wb bb := by
  funext i
  obtain ⟨p, q, rfl⟩ : ∃ (p : Fin 50000) (q : Fin 128), i = ix2 p q := ⟨i 0, i 1, eq_ix2 i⟩
  rw [layer_nodes, mlp_apply]
  exact congrArg (fun r => denseRelu r Wb bb q) (funext fun k => layer_nodes h Wa ba p k)

/-- A layer with the positive part and a plain layer on the pooled array are the read-out of every row. -/
theorem ffn_graphs (h : FVec Ideal S64x128 .f32) (Wa : FVec Ideal S128x128 .f32)
    (ba : FVec Ideal S128 .f32) (Wb : FVec Ideal S128x2 .f32)
    (bb : FVec Ideal S2 .f32) :
    addf (F := Ideal) (Host.dotGeneral (F := Ideal) dot_S64x128_S128x2_S64x2_1_0_0_1_n_n none
        (maximumf (F := Ideal) (addf (F := Ideal) (Host.dotGeneral (F := Ideal) dot_S64x128_S128x128_S64x128_1_0_0_1_n_n none h Wa) (val_main_v102 (F := Ideal) ba)) (val_main_call6_v0 (F := Ideal))) Wb)
        (val_main_v107 (F := Ideal) bb)
      = ffn h Wa ba Wb bb := by
  funext i
  obtain ⟨p, q, rfl⟩ : ∃ (p : Fin 64) (q : Fin 2), i = ix2 p q := ⟨i 0, i 1, eq_ix2 i⟩
  rw [addf_apply, dot_classes, bias_classes, ffn_apply]
  exact congrArg (fun r => dense r Wb bb q) (funext fun k => layer_graphs h Wa ba p k)

/-! ## The whole program -/

/-- THE RESULT of the plain program: the network of its arguments. -/
theorem value (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x2, .f32⟩ : BufTy).Contents (Elt Ideal)) (x18 : (⟨S2, .f32⟩ : BufTy).Contents (Elt Ideal)) :
    val_main_v108 (F := Ideal) x0 x1 x2 x3 x4 x5 x6 x7 x8 x9 x10 x11 x12 x13 x14 x15 x16 x17 x18 = network x0 x1 x2 x3 x4 x5 x6 x7 x8 x9 x10 x11 x12 x13 x14 x15 x16 x17 x18 := by
  have e1 : val_main_v21 (F := Ideal) x0 x1 = aggregate (F := Ideal) x0 (sources (F := Ideal) x1) (targets (F := Ideal) x1) := rfl
  have m1 : val_main_v31 (F := Ideal) x0 x1 x3 x4 x5 x6 = mlp (val_main_v21 (F := Ideal) x0 x1) x3 x4 x5 x6 := mlp_nodes _ _ _ _ _
  have e2 : val_main_v49 (F := Ideal) x0 x1 x3 x4 x5 x6 = aggregate (F := Ideal) (val_main_v31 (F := Ideal) x0 x1 x3 x4 x5 x6) (sources (F := Ideal) x1) (targets (F := Ideal) x1) := rfl
  have m2 : val_main_v59 (F := Ideal) x0 x1 x3 x4 x5 x6 x7 x8 x9 x10 = mlp (val_main_v49 (F := Ideal) x0 x1 x3 x4 x5 x6) x7 x8 x9 x10 := mlp_nodes _ _ _ _ _
  have e3 : val_main_v77 (F := Ideal) x0 x1 x3 x4 x5 x6 x7 x8 x9 x10 = aggregate (F := Ideal) (val_main_v59 (F := Ideal) x0 x1 x3 x4 x5 x6 x7 x8 x9 x10) (sources (F := Ideal) x1) (targets (F := Ideal) x1) := rfl
  have m3 : val_main_v87 (F := Ideal) x0 x1 x3 x4 x5 x6 x7 x8 x9 x10 x11 x12 x13 x14 = mlp (val_main_v77 (F := Ideal) x0 x1 x3 x4 x5 x6 x7 x8 x9 x10) x11 x12 x13 x14 := mlp_nodes _ _ _ _ _
  have e4 : val_main_v99 (F := Ideal) x0 x1 x2 x3 x4 x5 x6 x7 x8 x9 x10 x11 x12 x13 x14 = pool (F := Ideal) (val_main_v87 (F := Ideal) x0 x1 x3 x4 x5 x6 x7 x8 x9 x10 x11 x12 x13 x14) x2 := rfl
  have m4 : val_main_v108 (F := Ideal) x0 x1 x2 x3 x4 x5 x6 x7 x8 x9 x10 x11 x12 x13 x14 x15 x16 x17 x18 = ffn (val_main_v99 (F := Ideal) x0 x1 x2 x3 x4 x5 x6 x7 x8 x9 x10 x11 x12 x13 x14) x15 x16 x17 x18 := ffn_graphs _ _ _ _ _
  rw [m4, e4, m3, e3, m2, e2, m1, e1]
  rfl

end Cert.Gin.Ref

end
-- ==== Proof.lean ====
/-
  A three-round graph network with mean pooling and a two-layer read-out: the tiled program against the plain one.

  Both programs interleave the same host-side steps — a neighbourhood sum over the edge list before each round, the
  per-graph mean before the read-out — with dense layers. The plain program applies each dense layer to a whole array;
  the tiled one applies the two layers of a round to blocks of 2000 rows, 25 blocks to a round, and the read-out to
  the one 64-row block, rounding to a shorter float format on the way into each product. On extended reals a change of
  format is the identity, a product into a zero accumulator and the host's product are the same sum over the
  contracted axis, and a dense layer acts on each row separately; so a block of rows of the layered array is the
  layers of that block, the blocks tile the rows, and each call's output array is the plain program's. The host-side
  steps are the same operations on both sides and are never opened. No algebraic law is used and nothing needs the
  inputs finite: both sides are the same expression, `Cert.Gin.network` of the argument arrays
  (`Cert.Gin.Run.run` for the tiled program, `Cert.Gin.Ref.value` over the generated run for the plain one).
  The idealization rewrote nothing, so its ledger is empty.
-/
import proofs.«117396_j5025111736763_1_alg».proof.Defs
import proofs.«117396_j5025111736763_1_alg».proof.Proof.Gen.Kernel
import proofs.«117396_j5025111736763_1_alg».proof.Proof.Gen.Kernel.Skeleton
import proofs.«117396_j5025111736763_1_alg».proof.Proof.Gen.Kernel.Launch
import proofs.«117396_j5025111736763_1_alg».proof.Proof.Gen.Kernel.Points
import proofs.«117396_j5025111736763_1_alg».proof.Proof.Gen.Kernel.Frame
import proofs.«117396_j5025111736763_1_alg».proof.Proof.Gen.KernelIdeal
import proofs.«117396_j5025111736763_1_alg».proof.Proof.Gen.KernelIdeal.Skeleton
import proofs.«117396_j5025111736763_1_alg».proof.Proof.Gen.KernelIdeal.Launch
import proofs.«117396_j5025111736763_1_alg».proof.Proof.Gen.KernelIdeal.Points
import proofs.«117396_j5025111736763_1_alg».proof.Proof.Gen.KernelIdeal.Frame
import proofs.«117396_j5025111736763_1_alg».proof.Proof.Gen.ReferenceIdeal
import proofs.«117396_j5025111736763_1_alg».proof.Proof.Gen.ReferenceIdeal.Run
import proofs.«117396_j5025111736763_1_alg».proof.Proof.Gen.ReferenceIdeal.Read
import proofs.«117396_j5025111736763_1_alg».proof.Proof.Gen.Pre_finite_inputs
import proofs.«117396_j5025111736763_1_alg».proof.Proof.KernelRun
import proofs.«117396_j5025111736763_1_alg».proof.Proof.RefValue
import Idealize.ShloMosaic.Adequacy
import Idealize.ShloMosaic.Init

noncomputable section

namespace Cert.Proof

open Idealize.ShloMosaic Idealize.SL.Sem

/-- The word-level tiled program runs and leaves its arguments unchanged. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- The plain program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network of those arguments. -/
theorem algebraic : Cert.algebraic_KernelIdeal_ReferenceIdeal := by
  intro m ρ m' ρ' _ hagree
  refine ⟨_, Cert.Gin.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v108_eq, Cert.Gin.Ref.value, a0, a1, a2, a3, a4, a5, a6, a7, a8, a9, a10, a11, a12, a13, a14, a15, a16, a17, a18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
